-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S16x1x512x512 : Shape := ⟨4, ![16, 1, 512, 512]⟩
abbrev S16x64 : Shape := ⟨2, ![16, 64]⟩
abbrev S3x64 : Shape := ⟨2, ![3, 64]⟩
abbrev S3 : Shape := ⟨1, ![3]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S16x3x512x512 .f32) (main_arg1 : FVec F S16x1x512x512 .f32) (main_arg2 : IVec S16x64 32) (main_arg3 : FVec F S3x64 .f32) (main_arg4 : FVec F S3 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3 .f32 := Host.absf main_arg4
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S16x3x512x512 : Shape := ⟨4, ![16, 3, 512, 512]⟩
abbrev S16x1x512x512 : Shape := ⟨4, ![16, 1, 512, 512]⟩
abbrev S16x64 : Shape := ⟨2, ![16, 64]⟩
abbrev S3x64 : Shape := ⟨2, ![3, 64]⟩
abbrev S3 : Shape := ⟨1, ![3]⟩
abbrev S_ : Shape := ⟨0, ![]⟩
abbrev S16x8x8 : Shape := ⟨3, ![16, 8, 8]⟩
abbrev S3x8x8 : Shape := ⟨3, ![3, 8, 8]⟩
abbrev S16x1x8x8 : Shape := ⟨4, ![16, 1, 8, 8]⟩
abbrev S1x3x8x8 : Shape := ⟨4, ![1, 3, 8, 8]⟩
abbrev S16x3x8x8 : Shape := ⟨4, ![16, 3, 8, 8]⟩
abbrev S1x3x1x1 : Shape := ⟨4, ![1, 3, 1, 1]⟩
abbrev S8x16x3x8 : Shape := ⟨4, ![8, 16, 3, 8]⟩
abbrev S2x16x3x8 : Shape := ⟨4, ![2, 16, 3, 8]⟩
abbrev S16x1x128x512 : Shape := ⟨4, ![16, 1, 128, 512]⟩
abbrev S16x3x128x512 : Shape := ⟨4, ![16, 3, 128, 512]⟩
abbrev S16x3x2x8 : Shape := ⟨4, ![16, 3, 2, 8]⟩
abbrev S16x3x2x1x8 : Shape := ⟨5, ![16, 3, 2, 1, 8]⟩
abbrev S16x3x2x64x8 : Shape := ⟨5, ![16, 3, 2, 64, 8]⟩
abbrev S16x3x128x8 : Shape := ⟨4, ![16, 3, 128, 8]⟩
abbrev S16x3x128x8x1 : Shape := ⟨5, ![16, 3, 128, 8, 1]⟩
abbrev S16x3x128x8x64 : Shape := ⟨5, ![16, 3, 128, 8, 64]⟩

abbrev nBuf : Space → Nat
  | .hbm => 27
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S16x1x512x512, .f32⟩
  | .hbm, ⟨2, _⟩ => ⟨S16x64, .i32⟩
  | .hbm, ⟨3, _⟩ => ⟨S3x64, .f32⟩
  | .hbm, ⟨4, _⟩ => ⟨S3, .f32⟩
  | .hbm, ⟨5, _⟩ => ⟨S16x64, .f32⟩
  | .hbm, ⟨6, _⟩ => ⟨S_, .f32⟩
  | .hbm, ⟨7, _⟩ => ⟨S16x64, .f32⟩
  | .hbm, ⟨8, _⟩ => ⟨S16x64, .f32⟩
  | .hbm, ⟨9, _⟩ => ⟨S_, .f32⟩
  | .hbm, ⟨10, _⟩ => ⟨S16x64, .f32⟩
  | .hbm, ⟨11, _⟩ => ⟨S16x64, .f32⟩
  | .hbm, ⟨12, _⟩ => ⟨S16x8x8, .f32⟩
  | .hbm, ⟨13, _⟩ => ⟨S3x8x8, .f32⟩
  | .hbm, ⟨14, _⟩ => ⟨S16x1x8x8, .f32⟩
  | .hbm, ⟨15, _⟩ => ⟨S1x3x8x8, .f32⟩
  | .hbm, ⟨16, _⟩ => ⟨S16x3x8x8, .f32⟩
  | .hbm, ⟨17, _⟩ => ⟨S16x3x8x8, .f32⟩
  | .hbm, ⟨18, _⟩ => ⟨S16x3x8x8, .f32⟩
  | .hbm, ⟨19, _⟩ => ⟨S1x3x1x1, .f32⟩
  | .hbm, ⟨20, _⟩ => ⟨S16x3x8x8, .f32⟩
  | .hbm, ⟨21, _⟩ => ⟨S16x3x8x8, .f32⟩
  | .hbm, ⟨22, _⟩ => ⟨S_, .f32⟩
  | .hbm, ⟨23, _⟩ => ⟨S16x3x8x8, .f32⟩
  | .hbm, ⟨24, _⟩ => ⟨S16x3x8x8, .f32⟩
  | .hbm, ⟨25, _⟩ => ⟨S8x16x3x8, .f32⟩
  | .hbm, ⟨26, _⟩ => ⟨S16x3x512x512, .f32⟩
  | .local _ .vmem, ⟨0, _⟩ => ⟨S2x16x3x8, .f32⟩
  | .local _ .vmem, ⟨1, _⟩ => ⟨S2x16x3x8, .f32⟩
  | .local _ .vmem, ⟨2, _⟩ => ⟨S16x1x128x512, .f32⟩
  | .local _ .vmem, ⟨3, _⟩ => ⟨S16x1x128x512, .f32⟩
  | .local _ .vmem, ⟨4, _⟩ => ⟨S16x3x128x512, .f32⟩
  | .local _ .vmem, ⟨5, _⟩ => ⟨S16x3x128x512, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S2x16x3x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16x64 : S_.BroadcastsInDim S16x64 (![] : Fin 0 → Fin S16x64.rank)
  shapeCasts_S16x64_S16x8x8 : S16x64.ShapeCasts S16x8x8
  shapeCasts_S3x64_S3x8x8 : S3x64.ShapeCasts S3x8x8
  bcast_S16x8x8_S16x1x8x8_0_2_3 : S16x8x8.BroadcastsInDim S16x1x8x8 (![0, 2, 3] : Fin 3 → Fin S16x1x8x8.rank)
  bcast_S3x8x8_S1x3x8x8_1_2_3 : S3x8x8.BroadcastsInDim S1x3x8x8 (![1, 2, 3] : Fin 3 → Fin S1x3x8x8.rank)
  bcast_S16x1x8x8_S16x3x8x8_0_1_2_3 : S16x1x8x8.BroadcastsInDim S16x3x8x8 (![0, 1, 2, 3] : Fin 4 → Fin S16x3x8x8.rank)
  bcast_S1x3x8x8_S16x3x8x8_0_1_2_3 : S1x3x8x8.BroadcastsInDim S16x3x8x8 (![0, 1, 2, 3] : Fin 4 → Fin S16x3x8x8.rank)
  bcast_S3_S1x3x1x1_1 : S3.BroadcastsInDim S1x3x1x1 (![1] : Fin 1 → Fin S1x3x1x1.rank)
  bcast_S1x3x1x1_S16x3x8x8_0_1_2_3 : S1x3x1x1.BroadcastsInDim S16x3x8x8 (![0, 1, 2, 3] : Fin 4 → Fin S16x3x8x8.rank)
  bcast_S_S16x3x8x8 : S_.BroadcastsInDim S16x3x8x8 (![] : Fin 0 → Fin S16x3x8x8.rank)
  transposes_S16x3x8x8_S8x16x3x8_2_0_1_3 : S16x3x8x8.Transposes [2, 0, 1, 3] S8x16x3x8
  inb_S2x16x3x8_S2x16x3x8_0_0_0_0 : ∀ a, (![0, 0, 0, 0] : Fin 4 → Nat) a + S2x16x3x8.size a ≤ S2x16x3x8.size a
  h_S2x16x3x8 : 0 < S2x16x3x8.numel
  shapeCasts_S2x16x3x8_S2x16x3x8 : S2x16x3x8.ShapeCasts S2x16x3x8
  transposes_S2x16x3x8_p1_2_0_3_S16x3x2x8 : S2x16x3x8.Transposes [1, 2, 0, 3] S16x3x2x8
  shapeCasts_S16x3x2x8_S16x3x2x1x8 : S16x3x2x8.ShapeCasts S16x3x2x1x8
  broadcasts_S16x3x2x1x8_S16x3x2x64x8 : S16x3x2x1x8.Broadcasts S16x3x2x64x8
  shapeCasts_S16x3x2x64x8_S16x3x128x8 : S16x3x2x64x8.ShapeCasts S16x3x128x8
  shapeCasts_S16x3x128x8_S16x3x128x8x1 : S16x3x128x8.ShapeCasts S16x3x128x8x1
  broadcasts_S16x3x128x8x1_S16x3x128x8x64 : S16x3x128x8x1.Broadcasts S16x3x128x8x64
  shapeCasts_S16x3x128x8x64_S16x3x128x512 : S16x3x128x8x64.ShapeCasts S16x3x128x512
  inb_S16x1x128x512_S16x1x128x512_0_0_0_0 : ∀ a, (![0, 0, 0, 0] : Fin 4 → Nat) a + S16x1x128x512.size a ≤ S16x1x128x512.size a
  h_S16x1x128x512 : 0 < S16x1x128x512.numel
  broadcasts_S16x1x128x512_S16x3x128x512 : S16x1x128x512.Broadcasts S16x3x128x512
  inb_S16x3x128x512_S16x3x128x512_0_0_0_0 : ∀ a, (![0, 0, 0, 0] : Fin 4 → Nat) a + S16x3x128x512.size a ≤ S16x3x128x512.size a
  h_S16x3x128x512 : 0 < S16x3x128x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x3x8.size a ≤ S8x16x3x8.size a
  hwx0_0 : ∀ i : grid0.Coords, EltTy.bits .f32 = 32 ∨ (Rect.block (s := S8x16x3x8) S2x16x3x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x128x512.size a ≤ S16x1x512x512.size a
  hwx0_1 : ∀ i : grid0.Coords, EltTy.bits .f32 = 32 ∨ (Rect.block (s := S16x1x512x512) S16x1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x3x128x512.size a ≤ S16x3x512x512.size a
  hwx0_2 : ∀ i : grid0.Coords, EltTy.bits .f32 = 32 ∨ (Rect.block (s := S16x3x512x512) S16x3x128x512.size (cc0_transform_2 i) (hinb0_2 i)).WholeWords (EltTy.packing .f32)

variable [Facts₀]

abbrev win0_0 : Pipeline.Window sig grid0 :=
  Pipeline.Window.ofSpec (Memref.whole main_v17) S2x16x3x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S16x3x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x1x512x512 : Shape := ⟨4, ![16, 1, 512, 512]⟩
abbrev S16x64 : Shape := ⟨2, ![16, 64]⟩
abbrev S3x64 : Shape := ⟨2, ![3, 64]⟩
abbrev S3 : Shape := ⟨1, ![3]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S16x512x512 : Shape := ⟨3, ![16, 512, 512]⟩
abbrev S3x512x512 : Shape := ⟨3, ![3, 512, 512]⟩
abbrev S1x3x512x512 : Shape := ⟨4, ![1, 3, 512, 512]⟩
abbrev S3x1x1 : Shape := ⟨3, ![3, 1, 1]⟩
abbrev S1x3x1x1 : Shape := ⟨4, ![1, 3, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x1x512x512, .f32⟩
  | .hbm, ⟨2, _⟩ => ⟨S16x64, .i32⟩
  | .hbm, ⟨3, _⟩ => ⟨S3x64, .f32⟩
  | .hbm, ⟨4, _⟩ => ⟨S3, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S_, .i32⟩
  | .hbm, ⟨51, _⟩ => ⟨S512x1, .i32⟩
  | .hbm, ⟨52, _⟩ => ⟨S512x1, .i32⟩
  | .hbm, ⟨53, _⟩ => ⟨S1x512, .i32⟩
  | .hbm, ⟨54, _⟩ => ⟨S512x512, .i32⟩
  | .hbm, ⟨55, _⟩ => ⟨S512x512, .i32⟩
  | .hbm, ⟨56, _⟩ => ⟨S512x512, .i32⟩
  | .hbm, ⟨57, _⟩ => ⟨S16x64, .f32⟩
  | .hbm, ⟨58, _⟩ => ⟨S_, .f32⟩
  | .hbm, ⟨59, _⟩ => ⟨S16x64, .f32⟩
  | .hbm, ⟨60, _⟩ => ⟨S16x64, .f32⟩
  | .hbm, ⟨61, _⟩ => ⟨S_, .f32⟩
  | .hbm, ⟨62, _⟩ => ⟨S16x64, .f32⟩
  | .hbm, ⟨63, _⟩ => ⟨S16x64, .f32⟩
  | .hbm, ⟨64, _⟩ => ⟨S_, .i32⟩
  | .hbm, ⟨65, _⟩ => ⟨S512x512, .i32⟩
  | .hbm, ⟨66, _⟩ => ⟨S512x512, .i1⟩
  | .hbm, ⟨67, _⟩ => ⟨S_, .i32⟩
  | .hbm, ⟨68, _⟩ => ⟨S512x512, .i32⟩
  | .hbm, ⟨69, _⟩ => ⟨S512x512, .i32⟩
  | .hbm, ⟨70, _⟩ => ⟨S512x512, .i32⟩
  | .hbm, ⟨71, _⟩ => ⟨S512x512x1, .i32⟩
  | .hbm, ⟨72, _⟩ => ⟨S16x512x512, .f32⟩
  | .hbm, ⟨73, _⟩ => ⟨S_, .i32⟩
  | .hbm, ⟨74, _⟩ => ⟨S512x512, .i32⟩
  | .hbm, ⟨75, _⟩ => ⟨S512x512, .i1⟩
  | .hbm, ⟨76, _⟩ => ⟨S_, .i32⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S512x512x1, .i32⟩
  | .hbm, ⟨81, _⟩ => ⟨S3x512x512, .f32⟩
  | .hbm, ⟨82, _⟩ => ⟨S16x1x512x512, .f32⟩
  | .hbm, ⟨83, _⟩ => ⟨S1x3x512x512, .f32⟩
  | .hbm, ⟨84, _⟩ => ⟨S16x3x512x512, .f32⟩
  | .hbm, ⟨85, _⟩ => ⟨S16x3x512x512, .f32⟩
  | .hbm, ⟨86, _⟩ => ⟨S16x3x512x512, .f32⟩
  | .hbm, ⟨87, _⟩ => ⟨S3x1x1, .f32⟩
  | .hbm, ⟨88, _⟩ => ⟨S1x3x1x1, .f32⟩
  | .hbm, ⟨89, _⟩ => ⟨S16x3x512x512, .f32⟩
  | .hbm, ⟨90, _⟩ => ⟨S16x3x512x512, .f32⟩
  | .hbm, ⟨91, _⟩ => ⟨S_, .f32⟩
  | .hbm, ⟨92, _⟩ => ⟨S16x3x512x512, .f32⟩
  | .hbm, ⟨93, _⟩ => ⟨S16x3x512x512, .f32⟩
  | .hbm, ⟨94, _⟩ => ⟨S16x3x512x512, .f32⟩
  | .hbm, ⟨95, _⟩ => ⟨S16x3x512x512, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v5 : Ref sig .tc := ⟨.hbm, 45, rfl⟩
abbrev main_c_2 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_c_3 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst : Ref sig .tc := ⟨.hbm, 58, rfl⟩
abbrev main_v16 : Ref sig .tc := ⟨.hbm, 59, rfl⟩
abbrev main_v17 : Ref sig .tc := ⟨.hbm, 60, rfl⟩
abbrev main_cst_4 : Ref sig .tc := ⟨.hbm, 61, rfl⟩
abbrev main_v18 : Ref sig .tc := ⟨.hbm, 62, rfl⟩
abbrev main_v19 : Ref sig .tc := ⟨.hbm, 63, rfl⟩
abbrev main_c_5 : Ref sig .tc := ⟨.hbm, 64, rfl⟩
abbrev main_v20 : Ref sig .tc := ⟨.hbm, 65, rfl⟩
abbrev main_v21 : Ref sig .tc := ⟨.hbm, 66, rfl⟩
abbrev main_c_6 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_7 : Ref sig .tc := ⟨.hbm, 73, rfl⟩
abbrev main_v27 : Ref sig .tc := ⟨.hbm, 74, rfl⟩
abbrev main_v28 : Ref sig .tc := ⟨.hbm, 75, rfl⟩
abbrev main_c_8 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_9 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S16x64 : S_.BroadcastsInDim S16x64 (![] : Fin 0 → Fin S16x64.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S16x512x512_S16x1x512x512_0_2_3 : S16x512x512.BroadcastsInDim S16x1x512x512 (![0, 2, 3] : Fin 3 → Fin S16x1x512x512.rank)
  bcast_S3x512x512_S1x3x512x512_1_2_3 : S3x512x512.BroadcastsInDim S1x3x512x512 (![1, 2, 3] : Fin 3 → Fin S1x3x512x512.rank)
  bcast_S16x1x512x512_S16x3x512x512_0_1_2_3 : S16x1x512x512.BroadcastsInDim S16x3x512x512 (![0, 1, 2, 3] : Fin 4 → Fin S16x3x512x512.rank)
  bcast_S1x3x512x512_S16x3x512x512_0_1_2_3 : S1x3x512x512.BroadcastsInDim S16x3x512x512 (![0, 1, 2, 3] : Fin 4 → Fin S16x3x512x512.rank)
  bcast_S3_S3x1x1_0 : S3.BroadcastsInDim S3x1x1 (![0] : Fin 1 → Fin S3x1x1.rank)
  bcast_S3x1x1_S1x3x1x1_1_2_3 : S3x1x1.BroadcastsInDim S1x3x1x1 (![1, 2, 3] : Fin 3 → Fin S1x3x1x1.rank)
  bcast_S1x3x1x1_S16x3x512x512_0_1_2_3 : S1x3x1x1.BroadcastsInDim S16x3x512x512 (![0, 1, 2, 3] : Fin 4 → Fin S16x3x512x512.rank)
  bcast_S_S16x3x512x512 : S_.BroadcastsInDim S16x3x512x512 (![] : Fin 0 → Fin S16x3x512x512.rank)
  gather_S16x64_S512x512x1_S16x512x512_0_1_n_n_1_2_161_wf : GatherDims.WF S16x64 S512x512x1 S16x512x512 [0] [1] [] [1] [] 2 ![16, 1]
  gather_S3x64_S512x512x1_S3x512x512_0_1_n_n_1_2_31_wf : GatherDims.WF S3x64 S512x512x1 S3x512x512 [0] [1] [] [1] [] 2 ![3, 1]

variable [Facts₀]

def gather_S16x64_S512x512x1_S16x512x512_0_1_n_n_1_2_161 : GatherDims S16x64 S512x512x1 S16x512x512 where
  offsetDims := [0]
  collapsedSliceDims := [1]
  operandBatchingDims := []
  startIndicesBatchingDims := []
  startIndexMap := [1]
  indexVectorDim := 2
  sliceSizes := ![16, 1]
  wf := gather_S16x64_S512x512x1_S16x512x512_0_1_n_n_1_2_161_wf
def gather_S3x64_S512x512x1_S3x512x512_0_1_n_n_1_2_31 : GatherDims S3x64 S512x512x1 S3x512x512 where
  offsetDims := [0]
  collapsedSliceDims := [1]
  operandBatchingDims := []
  startIndicesBatchingDims := []
  startIndexMap := [1]
  indexVectorDim := 2
  sliceSizes := ![3, 1]
  wf := gather_S3x64_S512x512x1_S3x512x512_0_1_n_n_1_2_31_wf

class Facts : Prop extends Facts₀ where

variable [Facts]
-- ==== Proof.KernelBody.lean ====
/-
  The kernel body's value at an index.

  At a grid point the body holds a [2, 16, 3, 8] block `T` of the per-square table — two board rows, and for each
  the entry of every batch row, channel and board column — and a [16, 1, 128, 512] block `X` of the mask, 128 image
  rows.  It moves the board-row axis of `T` behind the channel axis, repeats each board row 64 times down the image
  rows and each board column 64 times along the image columns, and multiplies by the mask repeated over the three
  channels.  So element (b, c, r, w) of what it stores is

      T[⌊r / 64⌋, b, c, ⌊w / 64⌋] · X[b, 0, r, w].

  Each re-laying step (a transpose, a cast between shapes with the same row-major order, a repetition along a unit
  axis) is read at the index by the library's lemma for it; the casts' side conditions are equations between
  row-major positions, which are linear arithmetic with ⌊· / 64⌋ and (· mod 64).
-/
import proofs.«154849_j18915035972036_2_alg».proof.Proof.Gen.KernelIdeal.Skeleton
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The table block tiled over the image block, read at (b, c, r, w): board row ⌊r / 64⌋, board column ⌊w / 64⌋. -/
theorem tile_apply {α : Type} (T : S2x16x3x8.Idx → α)
    (h1 : S2x16x3x8.ShapeCasts S2x16x3x8) (h2 : S2x16x3x8.Transposes [1, 2, 0, 3] S16x3x2x8)
    (h3 : S16x3x2x8.ShapeCasts S16x3x2x1x8) (h4 : S16x3x2x1x8.Broadcasts S16x3x2x64x8)
    (h5 : S16x3x2x64x8.ShapeCasts S16x3x128x8) (h6 : S16x3x128x8.ShapeCasts S16x3x128x8x1)
    (h7 : S16x3x128x8x1.Broadcasts S16x3x128x8x64) (h8 : S16x3x128x8x64.ShapeCasts S16x3x128x512)
    (b : Fin 16) (c : Fin 3) (r : Fin 128) (w : Fin 512) :
    shapeCast S16x3x128x512 (broadcastTo S16x3x128x8x64 (shapeCast S16x3x128x8x1 (shapeCast S16x3x128x8
      (broadcastTo S16x3x2x64x8 (shapeCast S16x3x2x1x8 (transpose S16x3x2x8 [1, 2, 0, 3] (shapeCast S2x16x3x8 T h1) h2) h3) h4)
        h5) h6) h7) h8 (ix4 b c r w)
      = T (ix4 (⟨r.val / 64, by have := r.isLt; omega⟩ : Fin 2) b c (⟨w.val / 64, by have := w.isLt; omega⟩ : Fin 8)) := by
  have hr := r.isLt
  have hw := w.isLt
  -- the image column w is board column ⌊w / 64⌋, place (w mod 64) inside it
  rw [shapeCast_apply _ h8 (ix4 b c r w)
    (ix5 b c r (⟨w.val / 64, by omega⟩ : Fin 8) (⟨w.val % 64, by omega⟩ : Fin 64)) (by
      rw [Shape.rowMajor_val_five, Shape.rowMajor_val_four]
      show (((b.val * 3 + c.val) * 128 + r.val) * 8 + w.val / 64) * 64 + w.val % 64
        = ((b.val * 3 + c.val) * 128 + r.val) * 512 + w.val
      omega)]
  -- every place inside a board column holds the column's one value
  rw [broadcastTo_apply _ h7 _ (ix5 b c r (⟨w.val / 64, by omega⟩ : Fin 8) (0 : Fin 1)) (by
    intro a
    match a with
    | ⟨0, _⟩ => rfl
    | ⟨1, _⟩ => rfl
    | ⟨2, _⟩ => rfl
    | ⟨3, _⟩ => rfl
    | ⟨4, _⟩ => rfl)]
  rw [shapeCast_apply _ h6 _ (ix4 b c r (⟨w.val / 64, by omega⟩ : Fin 8)) (by
    rw [Shape.rowMajor_val_four, Shape.rowMajor_val_five]
    show ((b.val * 3 + c.val) * 128 + r.val) * 8 + w.val / 64
      = (((b.val * 3 + c.val) * 128 + r.val) * 8 + w.val / 64) * 1 + 0
    omega)]
  -- the image row r is board row ⌊r / 64⌋, place (r mod 64) inside it
  rw [shapeCast_apply _ h5 _
    (ix5 b c (⟨r.val / 64, by omega⟩ : Fin 2) (⟨r.val % 64, by omega⟩ : Fin 64) (⟨w.val / 64, by omega⟩ : Fin 8)) (by
      rw [Shape.rowMajor_val_five, Shape.rowMajor_val_four]
      show (((b.val * 3 + c.val) * 2 + r.val / 64) * 64 + r.val % 64) * 8 + w.val / 64
        = ((b.val * 3 + c.val) * 128 + r.val) * 8 + w.val / 64
      omega)]
  rw [broadcastTo_apply _ h4 _ (ix5 b c (⟨r.val / 64, by omega⟩ : Fin 2) (0 : Fin 1) (⟨w.val / 64, by omega⟩ : Fin 8)) (by
    intro a
    match a with
    | ⟨0, _⟩ => rfl
    | ⟨1, _⟩ => rfl
    | ⟨2, _⟩ => rfl
    | ⟨3, _⟩ => rfl
    | ⟨4, _⟩ => rfl)]
  rw [shapeCast_apply _ h3 _ (ix4 b c (⟨r.val / 64, by omega⟩ : Fin 2) (⟨w.val / 64, by omega⟩ : Fin 8)) (by
    rw [Shape.rowMajor_val_four, Shape.rowMajor_val_five]
    show ((b.val * 3 + c.val) * 2 + r.val / 64) * 8 + w.val / 64
      = (((b.val * 3 + c.val) * 2 + r.val / 64) * 1 + 0) * 8 + w.val / 64
    omega)]
  -- the board-row axis goes back in front of the batch and channel axes
  rw [transpose_apply _ _ h2 _ (ix4 (⟨r.val / 64, by omega⟩ : Fin 2) b c (⟨w.val / 64, by omega⟩ : Fin 8)) (by
    intro a
    match a with
    | ⟨0, _⟩ => rfl
    | ⟨1, _⟩ => rfl
    | ⟨2, _⟩ => rfl
    | ⟨3, _⟩ => rfl)]
  rw [shapeCast_self]

/-- The mask block repeated over the channels, read at (b, c, r, w): channel 0 of the mask. -/
theorem chan_apply {α : Type} (X : S16x1x128x512.Idx → α) (h : S16x1x128x512.Broadcasts S16x3x128x512)
    (b : Fin 16) (c : Fin 3) (r : Fin 128) (w : Fin 512) :
    broadcastTo S16x3x128x512 X h (ix4 b c r w) = X (ix4 b (0 : Fin 1) r w) :=
  broadcastTo_apply X h _ _ (by
    intro a
    match a with
    | ⟨0, _⟩ => rfl
    | ⟨1, _⟩ => rfl
    | ⟨2, _⟩ => rfl
    | ⟨3, _⟩ => rfl)

/-- THE STORED VALUE at (b, c, r, w): the table block's entry for the square of (r, w), times the mask. -/
theorem pay_apply (T : Vec Ideal S2x16x3x8 .f32) (X : Vec Ideal S16x1x128x512 .f32)
    (b : Fin 16) (c : Fin 3) (r : Fin 128) (w : Fin 512) :
    k0_pay1 (F := Ideal) T X (ix4 b c r w)
      = T (ix4 (⟨r.val / 64, by have := r.isLt; omega⟩ : Fin 2) b c (⟨w.val / 64, by have := w.isLt; omega⟩ : Fin 8))
          * X (ix4 b (0 : Fin 1) r w) := by
  unfold k0_pay1
  exact congrArg₂ (· * ·) (tile_apply T _ _ _ _ _ _ _ _ b c r w) (chan_apply X _ b c r w)

end Cert.KernelIdeal.Body

end
-- ==== Proof.Spec.lean ====
/-
  The specification: what both programs compute, as one function of the argument arrays.

  The 512 × 512 image is cut into an 8 × 8 board of 64 × 64 squares; pixel (h, w) lies in square
  n(h, w) = 8 · ⌊h / 64⌋ + ⌊w / 64⌋.  With the polarity of a bit p[b, n] = 2 · bits[b, n] − 1, the result at
  (b, c, h, w) is

      ((p[b, n(h, w)] · W[c, n(h, w)] + bias[c]) · ½) · M[b, 0, h, w]

  on the extended reals, the products and the sum grouped exactly so.  Both programs group them this way, so no law of
  arithmetic is needed to join them: the kernel and the reference differ only in HOW they find square n(h, w) — the
  kernel by tiling a per-square table over the image, the reference by integer arithmetic on pixel coordinates and a
  table look-up.
-/
import Idealize.ShloMosaic.PureOps.Ideal
import Idealize.ShloMosaic.Lib.ValueIdx

noncomputable section

namespace Cert.Spec

open Idealize.ShloMosaic Idealize.ShloMosaic.ValueIdx

/-- The square of pixel (h, w). -/
def square (h w : Fin 512) : Fin 64 := ⟨8 * (h.val / 64) + w.val / 64, by have := h.isLt; have := w.isLt; omega⟩

/-- The per-square table entry for batch row `b`, channel `c` and square `n`: (polarity · weight + bias) · ½. -/
def entry (bits : IVec ⟨2, ![16, 64]⟩ 32) (W : FVec Ideal ⟨2, ![3, 64]⟩ .f32) (bias : FVec Ideal ⟨1, ![3]⟩ .f32)
    (b : Fin 16) (c : Fin 3) (n : Fin 64) : Ideal .f32 :=
  ((FloatOps.sitofp (F := Ideal) .f32 (bits (ix2 b n)) * Ideal.ofBits .f32 0x40000000#32 - Ideal.ofBits .f32 0x3F800000#32)
      * W (ix2 c n) + bias (ix1 c)) * Ideal.ofBits .f32 0x3F000000#32

/-- The result array. -/
def out (M : FVec Ideal ⟨4, ![16, 1, 512, 512]⟩ .f32) (bits : IVec ⟨2, ![16, 64]⟩ 32) (W : FVec Ideal ⟨2, ![3, 64]⟩ .f32)
    (bias : FVec Ideal ⟨1, ![3]⟩ .f32) : FVec Ideal ⟨4, ![16, 3, 512, 512]⟩ .f32 :=
  fun i => entry bits W bias (i 0) (i 1) (square (i 2) (i 3)) * M (ix4 (i 0) (0 : Fin 1) (i 2) (i 3))

theorem out_apply (M : FVec Ideal ⟨4, ![16, 1, 512, 512]⟩ .f32) (bits : IVec ⟨2, ![16, 64]⟩ 32) (W : FVec Ideal ⟨2, ![3, 64]⟩ .f32)
    (bias : FVec Ideal ⟨1, ![3]⟩ .f32) (b : Fin 16) (c : Fin 3) (h w : Fin 512) :
    out M bits W bias (ix4 b c h w) = entry bits W bias b c (square h w) * M (ix4 b (0 : Fin 1) h w) := rfl

end Cert.Spec

end
-- ==== Proof.KernelTable.lean ====
/-
  The per-square table the kernel is handed.

  Before the call the host computes, for every batch row b, channel c and square (i, j) of the 8 × 8 board, the entry
  (polarity[b, 8i + j] · W[c, 8i + j] + bias[c]) · ½ — the polarities and weights, flat over the 64 squares, recast as
  8 × 8 boards — and stores it with the board-row axis in front: table[i, b, c, j].  This module names that term of
  the argument arrays, shows the region finds it in the buffer its first window reads, and reads it at an index: it is
  the specification's entry for square 8i + j.
-/
import proofs.«154849_j18915035972036_2_alg».proof.Proof.Gen.KernelIdeal.Frame
import proofs.«154849_j18915035972036_2_alg».proof.Proof.Spec
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.Table

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The host's table as one term of the bits, the weights and the bias. -/
def table (bits : IVec S16x64 32) (W : FVec F S3x64 .f32) (bias : FVec F S3 .f32) : FVec F S8x16x3x8 .f32 :=
  transpose S8x16x3x8 [2, 0, 1, 3]
    (mulf
      (addf
        (mulf
          (broadcastInDim S16x3x8x8 ![0, 1, 2, 3] bcast_S16x1x8x8_S16x3x8x8_0_1_2_3
            (broadcastInDim S16x1x8x8 ![0, 2, 3] bcast_S16x8x8_S16x1x8x8_0_2_3
              (shapeCast S16x8x8
                (subf (mulf (sitofp .f32 bits) (broadcastInDim S16x64 ![] bcast_S_S16x64 (constant (F := F) S_ .f32 0x40000000#32)))
                  (broadcastInDim S16x64 ![] bcast_S_S16x64 (constant (F := F) S_ .f32 0x3F800000#32)))
                shapeCasts_S16x64_S16x8x8)))
          (broadcastInDim S16x3x8x8 ![0, 1, 2, 3] bcast_S1x3x8x8_S16x3x8x8_0_1_2_3
            (broadcastInDim S1x3x8x8 ![1, 2, 3] bcast_S3x8x8_S1x3x8x8_1_2_3 (shapeCast S3x8x8 W shapeCasts_S3x64_S3x8x8))))
        (broadcastInDim S16x3x8x8 ![0, 1, 2, 3] bcast_S1x3x1x1_S16x3x8x8_0_1_2_3
          (broadcastInDim S1x3x1x1 ![1] bcast_S3_S1x3x1x1_1 bias)))
      (broadcastInDim S16x3x8x8 ![] bcast_S_S16x3x8x8 (constant (F := F) S_ .f32 0x3F000000#32)))
    transposes_S16x3x8x8_S8x16x3x8_2_0_1_3

/-- When the region is entered, the buffer its first window reads holds the table of the argument arrays. -/
theorem V_table (m : (ℓ : Loc nD τ sig) → Buf (Elt F) ℓ) (c : Dev nD) :
    (V m c main_v17 : S8x16x3x8.Idx → Elt F .f32)
      = table (m ((c : Thread nD τ).loc main_arg2)) (m ((c : Thread nD τ).loc main_arg3)) (m ((c : Thread nD τ).loc main_arg4)) := by
  dsimp only [Gen.V, Gen.hostOps0]
  after_results
  rfl

/-- THE TABLE AT (i, b, c, j): the specification's entry of batch row b and channel c for square 8i + j. -/
theorem table_apply (bits : IVec S16x64 32) (W : FVec Ideal S3x64 .f32) (bias : FVec Ideal S3 .f32)
    (i : Fin 8) (b : Fin 16) (c : Fin 3) (j : Fin 8) :
    table (F := Ideal) bits W bias (ix4 i b c j)
      = Cert.Spec.entry bits W bias b c (⟨8 * i.val + j.val, by have := i.isLt; have := j.isLt; omega⟩ : Fin 64) := by
  have hi := i.isLt
  have hj := j.isLt
  unfold table
  -- the board-row axis goes back behind the batch and channel axes
  rw [transpose_apply _ _ transposes_S16x3x8x8_S8x16x3x8_2_0_1_3 _ (ix4 b c i j) (by
    intro a
    match a with
    | ⟨0, _⟩ => rfl
    | ⟨1, _⟩ => rfl
    | ⟨2, _⟩ => rfl
    | ⟨3, _⟩ => rfl)]
  simp only [mulf_apply, addf_apply]
  -- the polarity board: constant over the channels, the flat square 8i + j recast as (i, j)
  rw [broadcastInDim_apply _ bcast_S16x1x8x8_S16x3x8x8_0_1_2_3 _ (ix4 b c i j) (ix4 b (0 : Fin 1) i j) (by
    intro a
    match a with
    | ⟨0, _⟩ => rfl
    | ⟨1, _⟩ => rfl
    | ⟨2, _⟩ => rfl
    | ⟨3, _⟩ => rfl)]
  rw [broadcastInDim_apply _ bcast_S16x8x8_S16x1x8x8_0_2_3 _ (ix4 b (0 : Fin 1) i j) (ix3 b i j) (by
    intro a
    match a with
    | ⟨0, _⟩ => rfl
    | ⟨1, _⟩ => rfl
    | ⟨2, _⟩ => rfl)]
  rw [shapeCast_apply _ shapeCasts_S16x64_S16x8x8 (ix3 b i j)
    (ix2 b (⟨8 * i.val + j.val, by omega⟩ : Fin 64)) (by
      rw [Shape.rowMajor_val_two, Shape.rowMajor_val_three]
      show b.val * 64 + (8 * i.val + j.val) = (b.val * 8 + i.val) * 8 + j.val
      omega)]
  -- the weight board: constant over the batch rows
  rw [broadcastInDim_apply _ bcast_S1x3x8x8_S16x3x8x8_0_1_2_3 _ (ix4 b c i j) (ix4 (0 : Fin 1) c i j) (by
    intro a
    match a with
    | ⟨0, _⟩ => rfl
    | ⟨1, _⟩ => rfl
    | ⟨2, _⟩ => rfl
    | ⟨3, _⟩ => rfl)]
  rw [broadcastInDim_apply _ bcast_S3x8x8_S1x3x8x8_1_2_3 _ (ix4 (0 : Fin 1) c i j) (ix3 c i j) (by
    intro a
    match a with
    | ⟨0, _⟩ => rfl
    | ⟨1, _⟩ => rfl
    | ⟨2, _⟩ => rfl)]
  rw [shapeCast_apply _ shapeCasts_S3x64_S3x8x8 (ix3 c i j)
    (ix2 c (⟨8 * i.val + j.val, by omega⟩ : Fin 64)) (by
      rw [Shape.rowMajor_val_two, Shape.rowMajor_val_three]
      show c.val * 64 + (8 * i.val + j.val) = (c.val * 8 + i.val) * 8 + j.val
      omega)]
  -- the bias: one value per channel
  rw [broadcastInDim_apply _ bcast_S1x3x1x1_S16x3x8x8_0_1_2_3 _ (ix4 b c i j) (ix4 (0 : Fin 1) c (0 : Fin 1) (0 : Fin 1)) (by
    intro a
    match a with
    | ⟨0, _⟩ => rfl
    | ⟨1, _⟩ => rfl
    | ⟨2, _⟩ => rfl
    | ⟨3, _⟩ => rfl)]
  rw [broadcastInDim_apply _ bcast_S3_S1x3x1x1_1 _ (ix4 (0 : Fin 1) c (0 : Fin 1) (0 : Fin 1)) (ix1 c) (by
    intro a
    match a with
    | ⟨0, _⟩ => rfl)]
  simp only [subf_apply, mulf_apply, sitofp_apply, broadcastInDim_scalar_apply, constant_apply]
  rfl

end Cert.KernelIdeal.Table

end
-- ==== Proof.KernelValue.lean ====
/-
  From the kernel's blocks to its result array.

  The grid has four points; point t is handed board rows 2t and 2t + 1 of the per-square table and image rows
  128t … 128t + 127 of the mask, and writes image rows 128t … 128t + 127 of the result.  Inside its block, row r is
  image row h = 128t + r, whose band is ⌊h / 64⌋ = 2t + ⌊r / 64⌋: the board row the body picks from its table block is
  the band of the image row.  So what point t writes is block t of the specification, the four blocks tile the 512
  image rows, and the result array ends holding the specification.
-/
import proofs.«154849_j18915035972036_2_alg».proof.Proof.Gen.KernelIdeal.Value
import proofs.«154849_j18915035972036_2_alg».proof.Proof.KernelBody
import proofs.«154849_j18915035972036_2_alg».proof.Proof.KernelTable
import proofs.«154849_j18915035972036_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

theorem zero_offsets : (![0, 0, 0, 0] : Fin 4 → Nat) = fun _ => 0 := funext fun a => by fin_cases a <;> rfl

theorem point_lt (t : Fin cfg0.N) : t.val < 4 := lt_of_lt_of_eq t.isLt N_0

/-- The specification of the argument arrays as launched. -/
abbrev spec (c : Dev nD) : S16x3x512x512.Idx → Elt Ideal .f32 :=
  Cert.Spec.out (m ((c : Thread nD τ).loc main_arg1)) (m ((c : Thread nD τ).loc main_arg2))
    (m ((c : Thread nD τ).loc main_arg3)) (m ((c : Thread nD τ).loc main_arg4))

/-- The printed index maps over the four grid points: the table's window moves along the board-row axis, the mask's
    and the result's along the image-row axis, each by one block per point. -/
theorem index_maps : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = 0 ∧ win0_1.index t (1 : Fin 4) = 0 ∧ win0_1.index t (2 : Fin 4) = t.val ∧ win0_1.index t (3 : Fin 4) = 0)
    ∧ (win0_2.index t (0 : Fin 4) = 0 ∧ win0_2.index t (1 : Fin 4) = 0 ∧ win0_2.index t (2 : Fin 4) = t.val ∧ win0_2.index t (3 : Fin 4) = 0) :=
  (by decide +kernel : ∀ t : Fin grid0.N, _)

/-- The table's block at point t is board rows 2t and 2t + 1 of the table the region finds. -/
theorem tableBlock_apply (c : Dev nD) (t : Fin cfg0.N) (p : Fin 2) (b : Fin 16) (k : Fin 3) (j : Fin 8) :
    (iblk m c 0 t : Vec Ideal S2x16x3x8 .f32) (ix4 p b k j)
      = (V m c main_v17 : S8x16x3x8.Idx → Elt Ideal .f32)
          (ix4 (⟨2 * t.val + p.val, by have := point_lt t; have := p.isLt; omega⟩ : Fin 8) b k j) := by
  obtain ⟨⟨e0, e1, e2, e3⟩, -, -⟩ := index_maps t
  unfold iblk
  rw [View.read_apply]
  show V m c main_v17 _ = V m c main_v17 _
  congr 1
  funext a
  apply Fin.ext
  match a with
  | ⟨0, _⟩ => show win0_0.index t (0 : Fin 4) * 2 + 1 * p.val = 2 * t.val + p.val; rw [e0]; omega
  | ⟨1, _⟩ => show win0_0.index t (1 : Fin 4) * 16 + 1 * b.val = b.val; rw [e1]; omega
  | ⟨2, _⟩ => show win0_0.index t (2 : Fin 4) * 3 + 1 * k.val = k.val; rw [e2]; omega
  | ⟨3, _⟩ => show win0_0.index t (3 : Fin 4) * 8 + 1 * j.val = j.val; rw [e3]; omega

/-- The mask's block at point t is image rows 128t … 128t + 127 of the mask as launched. -/
theorem maskBlock_apply (c : Dev nD) (t : Fin cfg0.N) (b : Fin 16) (r : Fin 128) (w : Fin 512) :
    (iblk m c 1 t : Vec Ideal S16x1x128x512 .f32) (ix4 b (0 : Fin 1) r w)
      = (m ((c : Thread nD τ).loc main_arg1) : S16x1x512x512.Idx → Elt Ideal .f32)
          (ix4 b (0 : Fin 1) (⟨128 * t.val + r.val, by have := point_lt t; have := r.isLt; omega⟩ : Fin 512) w) := by
  obtain ⟨-, ⟨e0, e1, e2, e3⟩, -⟩ := index_maps t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 4) * 16 + 1 * b.val = b.val; rw [e0]; omega
  | ⟨1, _⟩ => show win0_1.index t (1 : Fin 4) * 1 + 1 * 0 = 0; rw [e1]
  | ⟨2, _⟩ => show win0_1.index t (2 : Fin 4) * 128 + 1 * r.val = 128 * t.val + r.val; rw [e2]; omega
  | ⟨3, _⟩ => show win0_1.index t (3 : Fin 4) * 512 + 1 * w.val = w.val; rw [e3]; omega

/-- Row r of the result's block at point t is image row 128t + r of the result array. -/
theorem outBlock_emb (t : Fin cfg0.N) (b : Fin 16) (k : Fin 3) (r : Fin 128) (w : Fin 512) :
    ((cfg0.win 2).blk t).view.emb (ix4 b k r w)
      = ix4 b k (⟨128 * t.val + r.val, by have := point_lt t; have := r.isLt; omega⟩ : Fin 512) w := by
  obtain ⟨-, -, ⟨e0, e1, e2, e3⟩⟩ := index_maps t
  funext a
  apply Fin.ext
  match a with
  | ⟨0, _⟩ => show win0_2.index t (0 : Fin 4) * 16 + 1 * b.val = b.val; rw [e0]; omega
  | ⟨1, _⟩ => show win0_2.index t (1 : Fin 4) * 3 + 1 * k.val = k.val; rw [e1]; omega
  | ⟨2, _⟩ => show win0_2.index t (2 : Fin 4) * 128 + 1 * r.val = 128 * t.val + r.val; rw [e2]; omega
  | ⟨3, _⟩ => show win0_2.index t (3 : Fin 4) * 512 + 1 * w.val = w.val; rw [e3]; omega

/-- WHAT POINT t WRITES BACK is block t of the specification. -/
theorem block_eq (c : Dev nD) (t : Fin cfg0.N) :
    (dats m 0 c).flushed 2 t = ((cfg0.win 2).blk t).view.read (Elt Ideal) (spec m c) := by
  rw [flushed2]
  unfold out0_2
  rw [View.canon_unit_zero zero_offsets]
  simp only [View.ld_unit_zero (S := S2x16x3x8) zero_offsets, View.ld_unit_zero (S := S16x1x128x512) zero_offsets]
  refine funext fun (y : S16x3x128x512.Idx) => ?_
  obtain ⟨b, k, r, w, rfl⟩ : ∃ (b : Fin 16) (k : Fin 3) (r : Fin 128) (w : Fin 512), y = ix4 b k r w :=
    ⟨y 0, y 1, y 2, y 3, eq_ix4 y⟩
  show k0_pay1 (F := Ideal) (iblk m c 0 t) (iblk m c 1 t) (ix4 b k r w) = spec m c (((cfg0.win 2).blk t).view.emb (ix4 b k r w))
  refine (Body.pay_apply _ _ b k r w).trans ?_
  have ht := point_lt t
  have hr := r.isLt
  have hw := w.isLt
  rw [tableBlock_apply m c t, maskBlock_apply m c t, Table.V_table, Table.table_apply, outBlock_emb t]
  show _ = Cert.Spec.out _ _ _ _ (ix4 b k _ w)
  rw [Cert.Spec.out_apply]
  -- the board row picked inside the block is the band of the image row: 2t + ⌊r / 64⌋ = ⌊(128t + r) / 64⌋
  refine congrArg (fun n => Cert.Spec.entry _ _ _ b k n * _) (Fin.ext ?_)
  show 8 * (2 * t.val + r.val / 64) + w.val / 64 = 8 * ((128 * t.val + r.val) / 64) + w.val / 64
  omega

/-- An index of the result array is in point t's block iff each coordinate is in the block's range on its axis. -/
theorem mem_block (t : Fin cfg0.N) (i : S16x3x512x512.Idx) :
    i ∈ ((cfg0.win 2).blk t).view.set ↔ ∀ a : Fin 4, win0_2.index t a * S16x3x128x512.size a ≤ (i a).val
      ∧ (i a).val < win0_2.index t a * S16x3x128x512.size a + S16x3x128x512.size a := by
  show i ∈ ((View.whole main_v18).slice (win0_2.rect t)).set ↔ _
  rw [View.set_slice_whole, Rect.mem_set_unit]
  exact Iff.rfl

/-- The four blocks tile the array: image row h is in the block of point ⌊h / 128⌋. -/
theorem cover (i : S16x3x512x512.Idx) :
    ∃ t : Fin cfg0.N, (cfg0.win 2).flush t = true ∧ i ∈ ((cfg0.win 2).blk t).view.set := by
  have h0 : (i 0).val < 16 := (i 0).isLt
  have h1 : (i 1).val < 3 := (i 1).isLt
  have h2 : (i 2).val < 512 := (i 2).isLt
  have h3 : (i 3).val < 512 := (i 3).isLt
  have hN : (i 2).val / 128 < cfg0.N := by rw [show cfg0.N = 4 from N_0]; omega
  refine ⟨⟨(i 2).val / 128, hN⟩, flush0_2 _, ?_⟩
  obtain ⟨-, -, ⟨e0, e1, e2, e3⟩⟩ := index_maps ⟨(i 2).val / 128, hN⟩
  rw [mem_block]
  intro a
  match a with
  | ⟨0, _⟩ =>
    show win0_2.index ⟨(i 2).val / 128, hN⟩ (0 : Fin 4) * 16 ≤ (i 0).val
      ∧ (i 0).val < win0_2.index ⟨(i 2).val / 128, hN⟩ (0 : Fin 4) * 16 + 16
    rw [e0]; omega
  | ⟨1, _⟩ =>
    show win0_2.index ⟨(i 2).val / 128, hN⟩ (1 : Fin 4) * 3 ≤ (i 1).val
      ∧ (i 1).val < win0_2.index ⟨(i 2).val / 128, hN⟩ (1 : Fin 4) * 3 + 3
    rw [e1]; omega
  | ⟨2, _⟩ =>
    show win0_2.index ⟨(i 2).val / 128, hN⟩ (2 : Fin 4) * 128 ≤ (i 2).val
      ∧ (i 2).val < win0_2.index ⟨(i 2).val / 128, hN⟩ (2 : Fin 4) * 128 + 128
    rw [e2]; show (i 2).val / 128 * 128 ≤ (i 2).val ∧ (i 2).val < (i 2).val / 128 * 128 + 128; omega
  | ⟨3, _⟩ =>
    show win0_2.index ⟨(i 2).val / 128, hN⟩ (3 : Fin 4) * 512 ≤ (i 3).val
      ∧ (i 3).val < win0_2.index ⟨(i 2).val / 128, hN⟩ (3 : Fin 4) * 512 + 512
    rw [e3]; omega

/-- THE RESULT ARRAY after the run is the specification of the argument arrays. -/
theorem final (c : Dev nD) : (dats m 0 c).arrAt 2 cfg0.N = spec m c :=
  (dats m 0 c).arrAt_eq_of_cover 2 (spec m c) (fun t _ => block_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v18) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefStages.lean ====
/-
  The reference program's value, named in stages.

  The reference computes, for a pixel (h, w) of a 512 × 512 image cut into an 8 × 8 board of 64 × 64 squares, the number
  n(h, w) = 8 · min(⌊h / 64⌋, 7) + min(⌊w / 64⌋, 7) of the square it lies in, looks up the polarity 2·bits[b, n] − 1 and the
  weight W[c, n] of that square, and returns ((polarity · weight + bias[c]) · ½) · M[b, 0, h, w].  The square's number is
  computed on 32-bit words: an iota, jnp's lowered floor division (the truncated quotient, less one when the signs of
  dividend and divisor differ and the remainder is not zero), a cap at 7, and — before each table look-up — the wrap of a
  negative index by the table's length 64.  The definitions below spell those operations once, as functions of the
  argument arrays, in the order the program applies them.
-/
import proofs.«154849_j18915035972036_2_alg».proof.ReferenceIdeal

noncomputable section

namespace Cert.ReferenceIdeal.Stages

open Cert.ReferenceIdeal Idealize.ShloMosaic
open Facts₀ Facts

variable {F : FTy → Type} [FloatOps F] [Facts]

/-- jnp's floor division of a vector of words by one word, as it is lowered: the truncated quotient, less one where
    the signs differ and the remainder is not zero. -/
def floorDiv (x : IVec S512 32) (c : IVec S_ 32) : IVec S512 32 :=
  select
    (andi (cmpi .ne (signi x) (broadcastInDim S512 ![] bcast_S_S512 (signi c)))
      (cmpi .ne (Host.remsi x (broadcastInDim S512 ![] bcast_S_S512 c)) (broadcastInDim S512 ![] bcast_S_S512 (constantI S_ 32 0#32))))
    (subi (Host.divsi x (broadcastInDim S512 ![] bcast_S_S512 c)) (broadcastInDim S512 ![] bcast_S_S512 (constantI S_ 32 1#32)))
    (Host.divsi x (broadcastInDim S512 ![] bcast_S_S512 c))

/-- The band of each of the 512 rows (or columns): ⌊k / 64⌋ capped at 7. -/
def band : IVec S512 32 :=
  minsi (floorDiv (iotaInDim S512 32 0) (constantI S_ 32 64#32)) (broadcastInDim S512 ![] bcast_S_S512 (constantI S_ 32 7#32))

/-- The square of each pixel: 8 · (the row's band) + (the column's band). -/
def squareOf : IVec S512x512 32 :=
  addi
    (broadcastInDim S512x512 ![0, 1] bcast_S512x1_S512x512_0_1
      (muli (broadcastInDim S512x1 ![0] bcast_S512_S512x1_0 band) (broadcastInDim S512x1 ![] bcast_S_S512x1 (constantI S_ 32 8#32))))
    (broadcastInDim S512x512 ![0, 1] bcast_S1x512_S512x512_0_1 (broadcastInDim S1x512 ![1] bcast_S512_S1x512_1 band))

/-- The start indices of a table look-up: the square, a negative one wrapped by the table's length 64, as a
    [512, 512, 1] array. -/
def lookupAt : IVec S512x512x1 32 :=
  broadcastInDim S512x512x1 ![0, 1] bcast_S512x512_S512x512x1_0_1
    (select (cmpi .slt squareOf (broadcastInDim S512x512 ![] bcast_S_S512x512 (constantI S_ 32 0#32)))
      (addi squareOf (broadcastInDim S512x512 ![] bcast_S_S512x512 (constantI S_ 32 64#32))) squareOf)

/-- The polarity of each bit: 2 · bit − 1. -/
def polarity (bits : IVec S16x64 32) : FVec F S16x64 .f32 :=
  subf (mulf (sitofp .f32 bits) (broadcastInDim S16x64 ![] bcast_S_S16x64 (constant (F := F) S_ .f32 0x40000000#32)))
    (broadcastInDim S16x64 ![] bcast_S_S16x64 (constant (F := F) S_ .f32 0x3F800000#32))

/-- The reference's result as one function of its argument arrays. -/
def result (M : FVec F S16x1x512x512 .f32) (bits : IVec S16x64 32) (W : FVec F S3x64 .f32) (bias : FVec F S3 .f32) :
    FVec F S16x3x512x512 .f32 :=
  mulf
    (mulf
      (addf
        (mulf
          (broadcastInDim S16x3x512x512 ![0, 1, 2, 3] bcast_S16x1x512x512_S16x3x512x512_0_1_2_3
            (broadcastInDim S16x1x512x512 ![0, 2, 3] bcast_S16x512x512_S16x1x512x512_0_2_3
              (Host.gather gather_S16x64_S512x512x1_S16x512x512_0_1_n_n_1_2_161 (polarity bits) lookupAt)))
          (broadcastInDim S16x3x512x512 ![0, 1, 2, 3] bcast_S1x3x512x512_S16x3x512x512_0_1_2_3
            (broadcastInDim S1x3x512x512 ![1, 2, 3] bcast_S3x512x512_S1x3x512x512_1_2_3
              (Host.gather gather_S3x64_S512x512x1_S3x512x512_0_1_n_n_1_2_31 W lookupAt))))
        (broadcastInDim S16x3x512x512 ![0, 1, 2, 3] bcast_S1x3x1x1_S16x3x512x512_0_1_2_3
          (broadcastInDim S1x3x1x1 ![1, 2, 3] bcast_S3x1x1_S1x3x1x1_1_2_3 (broadcastInDim S3x1x1 ![0] bcast_S3_S3x1x1_0 bias))))
      (broadcastInDim S16x3x512x512 ![] bcast_S_S16x3x512x512 (constant (F := F) S_ .f32 0x3F000000#32)))
    (broadcastInDim S16x3x512x512 ![0, 1, 2, 3] bcast_S16x1x512x512_S16x3x512x512_0_1_2_3 M)

end Cert.ReferenceIdeal.Stages

end
-- ==== Proof.RefRun.lean ====
/-
  The reference program's run.

  @main of the reference is a straight line of 91 host operations once its two calls of jnp's floor division are
  written out at their call sites (17 operations each, into the buffers of that call).  Every weakly fair execution
  of it terminates, and each buffer then holds the fold of those operations over the launch contents; read at the
  result buffer the fold is the staged term `Stages.result` of the argument arrays, and the argument arrays are
  written by no operation.
-/
import proofs.«154849_j18915035972036_2_alg».proof.Proof.Gen.ReferenceIdeal
import proofs.«154849_j18915035972036_2_alg».proof.Proof.RefStages
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call of the floor division written out over that call's buffers. -/
abbrev ops : List (HloOp τ sig (Elt F)) :=
  [ StableHlo.nullary main_v0 (iotaInDim S512 32 0),
    StableHlo.nullary main_c (constantI S_ 32 64#32),
    StableHlo.TRef.unary (.of main_c) main_call0.v0 id,
    StableHlo.TRef.unary main_call0.v0 main_call0.v1 (broadcastInDim S512 ![] bcast_S_S512),
    StableHlo.TRef.binary (.of main_v0) main_call0.v1 main_call0.v2 Host.divsi,
    StableHlo.TRef.unary (.of main_v0) main_call0.v3 signi,
    StableHlo.TRef.unary main_call0.v0 main_call0.v4 signi,
    StableHlo.TRef.unary main_call0.v4 main_call0.v5 (broadcastInDim S512 ![] bcast_S_S512),
    StableHlo.TRef.binary main_call0.v3 main_call0.v5 main_call0.v6 (cmpi .ne),
    StableHlo.TRef.unary main_call0.v0 main_call0.v7 (broadcastInDim S512 ![] bcast_S_S512),
    StableHlo.TRef.binary (.of main_v0) main_call0.v7 main_call0.v8 Host.remsi,
    StableHlo.TRef.nullary main_call0.c (constantI S_ 32 0#32),
    StableHlo.TRef.unary main_call0.c main_call0.v9 (broadcastInDim S512 ![] bcast_S_S512),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S512 ![] bcast_S_S512),
    StableHlo.TRef.binary main_call0.v2 main_call0.v12 main_call0.v13 subi,
    StableHlo.TRef.ternary main_call0.v11 main_call0.v13 main_call0.v2 main_call0.call0.v0 select,
    StableHlo.nullary main_c_0 (constantI S_ 32 7#32),
    StableHlo.unary main_c_0 main_v2 (broadcastInDim S512 ![] bcast_S_S512 : (⟨S_, .i32⟩ : BufTy).Contents (Elt F) → (⟨S512, .i32⟩ : BufTy).Contents (Elt F)),
    StableHlo.binary main_v1 main_v2 main_v3 (minsi : (⟨S512, .i32⟩ : BufTy).Contents (Elt F) → (⟨S512, .i32⟩ : BufTy).Contents (Elt F) → (⟨S512, .i32⟩ : BufTy).Contents (Elt F)),
    StableHlo.nullary main_v4 (iotaInDim S512 32 0),
    StableHlo.nullary main_c_1 (constantI S_ 32 64#32),
    StableHlo.TRef.unary (.of main_c_1) main_call1.v0 id,
    StableHlo.TRef.unary main_call1.v0 main_call1.v1 (broadcastInDim S512 ![] bcast_S_S512),
    StableHlo.TRef.binary (.of main_v4) main_call1.v1 main_call1.v2 Host.divsi,
    StableHlo.TRef.unary (.of main_v4) main_call1.v3 signi,
    StableHlo.TRef.unary main_call1.v0 main_call1.v4 signi,
    StableHlo.TRef.unary main_call1.v4 main_call1.v5 (broadcastInDim S512 ![] bcast_S_S512),
    StableHlo.TRef.binary main_call1.v3 main_call1.v5 main_call1.v6 (cmpi .ne),
    StableHlo.TRef.unary main_call1.v0 main_call1.v7 (broadcastInDim S512 ![] bcast_S_S512),
    StableHlo.TRef.binary (.of main_v4) main_call1.v7 main_call1.v8 Host.remsi,
    StableHlo.TRef.nullary main_call1.c (constantI S_ 32 0#32),
    StableHlo.TRef.unary main_call1.c main_call1.v9 (broadcastInDim S512 ![] bcast_S_S512),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S512 ![] bcast_S_S512),
    StableHlo.TRef.binary main_call1.v2 main_call1.v12 main_call1.v13 subi,
    StableHlo.TRef.ternary main_call1.v11 main_call1.v13 main_call1.v2 main_call1.call0.v0 select,
    StableHlo.nullary main_c_2 (constantI S_ 32 7#32),
    StableHlo.unary main_c_2 main_v6 (broadcastInDim S512 ![] bcast_S_S512 : (⟨S_, .i32⟩ : BufTy).Contents (Elt F) → (⟨S512, .i32⟩ : BufTy).Contents (Elt F)),
    StableHlo.binary main_v5 main_v6 main_v7 (minsi : (⟨S512, .i32⟩ : BufTy).Contents (Elt F) → (⟨S512, .i32⟩ : BufTy).Contents (Elt F) → (⟨S512, .i32⟩ : BufTy).Contents (Elt F)),
    StableHlo.unary main_v3 main_v8 (broadcastInDim S512x1 ![0] bcast_S512_S512x1_0 : (⟨S512, .i32⟩ : BufTy).Contents (Elt F) → (⟨S512x1, .i32⟩ : BufTy).Contents (Elt F)),
    StableHlo.nullary main_c_3 (constantI S_ 32 8#32),
    StableHlo.unary main_c_3 main_v9 (broadcastInDim S512x1 ![] bcast_S_S512x1 : (⟨S_, .i32⟩ : BufTy).Contents (Elt F) → (⟨S512x1, .i32⟩ : BufTy).Contents (Elt F)),
    StableHlo.binary main_v8 main_v9 main_v10 (muli : (⟨S512x1, .i32⟩ : BufTy).Contents (Elt F) → (⟨S512x1, .i32⟩ : BufTy).Contents (Elt F) → (⟨S512x1, .i32⟩ : BufTy).Contents (Elt F)),
    StableHlo.unary main_v7 main_v11 (broadcastInDim S1x512 ![1] bcast_S512_S1x512_1 : (⟨S512, .i32⟩ : BufTy).Contents (Elt F) → (⟨S1x512, .i32⟩ : BufTy).Contents (Elt F)),
    StableHlo.unary main_v10 main_v12 (broadcastInDim S512x512 ![0, 1] bcast_S512x1_S512x512_0_1 : (⟨S512x1, .i32⟩ : BufTy).Contents (Elt F) → (⟨S512x512, .i32⟩ : BufTy).Contents (Elt F)),
    StableHlo.unary main_v11 main_v13 (broadcastInDim S512x512 ![0, 1] bcast_S1x512_S512x512_0_1 : (⟨S1x512, .i32⟩ : BufTy).Contents (Elt F) → (⟨S512x512, .i32⟩ : BufTy).Contents (Elt F)),
    StableHlo.binary main_v12 main_v13 main_v14 (addi : (⟨S512x512, .i32⟩ : BufTy).Contents (Elt F) → (⟨S512x512, .i32⟩ : BufTy).Contents (Elt F) → (⟨S512x512, .i32⟩ : BufTy).Contents (Elt F)),
    StableHlo.unary main_arg2 main_v15 (sitofp .f32 : (⟨S16x64, .i32⟩ : BufTy).Contents (Elt F) → (⟨S16x64, .f32⟩ : BufTy).Contents (Elt F)),
    StableHlo.nullary main_cst (constant S_ .f32 0x40000000#32),
    StableHlo.unary main_cst main_v16 (broadcastInDim S16x64 ![] bcast_S_S16x64 : (⟨S_, .f32⟩ : BufTy).Contents (Elt F) → (⟨S16x64, .f32⟩ : BufTy).Contents (Elt F)),
    StableHlo.binary main_v15 main_v16 main_v17 (mulf : (⟨S16x64, .f32⟩ : BufTy).Contents (Elt F) → (⟨S16x64, .f32⟩ : BufTy).Contents (Elt F) → (⟨S16x64, .f32⟩ : BufTy).Contents (Elt F)),
    StableHlo.nullary main_cst_4 (constant S_ .f32 0x3F800000#32),
    StableHlo.unary main_cst_4 main_v18 (broadcastInDim S16x64 ![] bcast_S_S16x64 : (⟨S_, .f32⟩ : BufTy).Contents (Elt F) → (⟨S16x64, .f32⟩ : BufTy).Contents (Elt F)),
    StableHlo.binary main_v17 main_v18 main_v19 (subf : (⟨S16x64, .f32⟩ : BufTy).Contents (Elt F) → (⟨S16x64, .f32⟩ : BufTy).Contents (Elt F) → (⟨S16x64, .f32⟩ : BufTy).Contents (Elt F)),
    StableHlo.nullary main_c_5 (constantI S_ 32 0#32),
    StableHlo.unary main_c_5 main_v20 (broadcastInDim S512x512 ![] bcast_S_S512x512 : (⟨S_, .i32⟩ : BufTy).Contents (Elt F) → (⟨S512x512, .i32⟩ : BufTy).Contents (Elt F)),
    StableHlo.binary main_v14 main_v20 main_v21 (cmpi .slt : (⟨S512x512, .i32⟩ : BufTy).Contents (Elt F) → (⟨S512x512, .i32⟩ : BufTy).Contents (Elt F) → (⟨S512x512, .i1⟩ : BufTy).Contents (Elt F)),
    StableHlo.nullary main_c_6 (constantI S_ 32 64#32),
    StableHlo.unary main_c_6 main_v22 (broadcastInDim S512x512 ![] bcast_S_S512x512 : (⟨S_, .i32⟩ : BufTy).Contents (Elt F) → (⟨S512x512, .i32⟩ : BufTy).Contents (Elt F)),
    StableHlo.binary main_v14 main_v22 main_v23 (addi : (⟨S512x512, .i32⟩ : BufTy).Contents (Elt F) → (⟨S512x512, .i32⟩ : BufTy).Contents (Elt F) → (⟨S512x512, .i32⟩ : BufTy).Contents (Elt F)),
    StableHlo.ternary main_v21 main_v23 main_v14 main_v24 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    StableHlo.unary main_v24 main_v25 (broadcastInDim S512x512x1 ![0, 1] bcast_S512x512_S512x512x1_0_1 : (⟨S512x512, .i32⟩ : BufTy).Contents (Elt F) → (⟨S512x512x1, .i32⟩ : BufTy).Contents (Elt F)),
    StableHlo.binary main_v19 main_v25 main_v26 ((fun x i => Host.gather gather_S16x64_S512x512x1_S16x512x512_0_1_n_n_1_2_161 x i) : (⟨S16x64, .f32⟩ : BufTy).Contents (Elt F) → (⟨S512x512x1, .i32⟩ : BufTy).Contents (Elt F) → (⟨S16x512x512, .f32⟩ : BufTy).Contents (Elt F)),
    StableHlo.nullary main_c_7 (constantI S_ 32 0#32),
    StableHlo.unary main_c_7 main_v27 (broadcastInDim S512x512 ![] bcast_S_S512x512 : (⟨S_, .i32⟩ : BufTy).Contents (Elt F) → (⟨S512x512, .i32⟩ : BufTy).Contents (Elt F)),
    StableHlo.binary main_v14 main_v27 main_v28 (cmpi .slt : (⟨S512x512, .i32⟩ : BufTy).Contents (Elt F) → (⟨S512x512, .i32⟩ : BufTy).Contents (Elt F) → (⟨S512x512, .i1⟩ : BufTy).Contents (Elt F)),
    StableHlo.nullary main_c_8 (constantI S_ 32 64#32),
    StableHlo.unary main_c_8 main_v29 (broadcastInDim S512x512 ![] bcast_S_S512x512 : (⟨S_, .i32⟩ : BufTy).Contents (Elt F) → (⟨S512x512, .i32⟩ : BufTy).Contents (Elt F)),
    StableHlo.binary main_v14 main_v29 main_v30 (addi : (⟨S512x512, .i32⟩ : BufTy).Contents (Elt F) → (⟨S512x512, .i32⟩ : BufTy).Contents (Elt F) → (⟨S512x512, .i32⟩ : BufTy).Contents (Elt F)),
    StableHlo.ternary main_v28 main_v30 main_v14 main_v31 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    StableHlo.unary main_v31 main_v32 (broadcastInDim S512x512x1 ![0, 1] bcast_S512x512_S512x512x1_0_1 : (⟨S512x512, .i32⟩ : BufTy).Contents (Elt F) → (⟨S512x512x1, .i32⟩ : BufTy).Contents (Elt F)),
    StableHlo.binary main_arg3 main_v32 main_v33 ((fun x i => Host.gather gather_S3x64_S512x512x1_S3x512x512_0_1_n_n_1_2_31 x i) : (⟨S3x64, .f32⟩ : BufTy).Contents (Elt F) → (⟨S512x512x1, .i32⟩ : BufTy).Contents (Elt F) → (⟨S3x512x512, .f32⟩ : BufTy).Contents (Elt F)),
    StableHlo.unary main_v26 main_v34 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    StableHlo.unary main_v33 main_v35 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v34 main_v36 (broadcastInDim S16x3x512x512 ![0, 1, 2, 3] bcast_S16x1x512x512_S16x3x512x512_0_1_2_3 : (⟨S16x1x512x512, .f32⟩ : BufTy).Contents (Elt F) → (⟨S16x3x512x512, .f32⟩ : BufTy).Contents (Elt F)),
    StableHlo.unary main_v35 main_v37 (broadcastInDim S16x3x512x512 ![0, 1, 2, 3] bcast_S1x3x512x512_S16x3x512x512_0_1_2_3 : (⟨S1x3x512x512, .f32⟩ : BufTy).Contents (Elt F) → (⟨S16x3x512x512, .f32⟩ : BufTy).Contents (Elt F)),
    StableHlo.binary main_v36 main_v37 main_v38 (mulf : (⟨S16x3x512x512, .f32⟩ : BufTy).Contents (Elt F) → (⟨S16x3x512x512, .f32⟩ : BufTy).Contents (Elt F) → (⟨S16x3x512x512, .f32⟩ : BufTy).Contents (Elt F)),
    StableHlo.unary main_arg4 main_v39 (broadcastInDim S3x1x1 ![0] bcast_S3_S3x1x1_0 : (⟨S3, .f32⟩ : BufTy).Contents (Elt F) → (⟨S3x1x1, .f32⟩ : BufTy).Contents (Elt F)),
    StableHlo.unary main_v39 main_v40 (broadcastInDim S1x3x1x1 ![1, 2, 3] bcast_S3x1x1_S1x3x1x1_1_2_3 : (⟨S3x1x1, .f32⟩ : BufTy).Contents (Elt F) → (⟨S1x3x1x1, .f32⟩ : BufTy).Contents (Elt F)),
    StableHlo.unary main_v40 main_v41 (broadcastInDim S16x3x512x512 ![0, 1, 2, 3] bcast_S1x3x1x1_S16x3x512x512_0_1_2_3 : (⟨S1x3x1x1, .f32⟩ : BufTy).Contents (Elt F) → (⟨S16x3x512x512, .f32⟩ : BufTy).Contents (Elt F)),
    StableHlo.binary main_v38 main_v41 main_v42 (addf : (⟨S16x3x512x512, .f32⟩ : BufTy).Contents (Elt F) → (⟨S16x3x512x512, .f32⟩ : BufTy).Contents (Elt F) → (⟨S16x3x512x512, .f32⟩ : BufTy).Contents (Elt F)),
    StableHlo.nullary main_cst_9 (constant S_ .f32 0x3F000000#32),
    StableHlo.unary main_cst_9 main_v43 (broadcastInDim S16x3x512x512 ![] bcast_S_S16x3x512x512 : (⟨S_, .f32⟩ : BufTy).Contents (Elt F) → (⟨S16x3x512x512, .f32⟩ : BufTy).Contents (Elt F)),
    StableHlo.binary main_v42 main_v43 main_v44 (mulf : (⟨S16x3x512x512, .f32⟩ : BufTy).Contents (Elt F) → (⟨S16x3x512x512, .f32⟩ : BufTy).Contents (Elt F) → (⟨S16x3x512x512, .f32⟩ : BufTy).Contents (Elt F)),
    StableHlo.unary main_arg1 main_v45 (broadcastInDim S16x3x512x512 ![0, 1, 2, 3] bcast_S16x1x512x512_S16x3x512x512_0_1_2_3 : (⟨S16x1x512x512, .f32⟩ : BufTy).Contents (Elt F) → (⟨S16x3x512x512, .f32⟩ : BufTy).Contents (Elt F)),
    StableHlo.binary main_v44 main_v45 main_v46 (mulf : (⟨S16x3x512x512, .f32⟩ : BufTy).Contents (Elt F) → (⟨S16x3x512x512, .f32⟩ : BufTy).Contents (Elt F) → (⟨S16x3x512x512, .f32⟩ : BufTy).Contents (Elt F)) ]

set_option maxRecDepth 65536 in
set_option maxHeartbeats 2000000 in
/-- @main is that straight line: with the called function's body unfolded at its two calls, the program's sequence
    of steps and the list's are the same term up to unfolding. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩

/-- Every weakly fair execution of @main terminates with every buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather in
set_option maxRecDepth 16384 in
set_option maxHeartbeats 4000000 in
/-- The fold read at the result buffer is the staged term of the four argument arrays it depends on. -/
theorem out_eq (V : Valuation τ sig (Elt F)) :
    after ops V (main_v46 : DevRef τ sig)
      = Stages.result (V (main_arg1 : DevRef τ sig)) (V (main_arg2 : DevRef τ sig)) (V (main_arg3 : DevRef τ sig))
          (V (main_arg4 : DevRef τ sig)) := by
  after_results_simp
  rfl

set_option maxRecDepth 16384 in
set_option maxHeartbeats 4000000 in
/-- No operation writes an argument array. -/
theorem arg0_eq (V : Valuation τ sig (Elt F)) : after ops V (main_arg0 : DevRef τ sig) = V (main_arg0 : DevRef τ sig) := by
  after_results_simp
set_option maxRecDepth 16384 in
set_option maxHeartbeats 4000000 in
theorem arg1_eq (V : Valuation τ sig (Elt F)) : after ops V (main_arg1 : DevRef τ sig) = V (main_arg1 : DevRef τ sig) := by
  after_results_simp
set_option maxRecDepth 16384 in
set_option maxHeartbeats 4000000 in
theorem arg2_eq (V : Valuation τ sig (Elt F)) : after ops V (main_arg2 : DevRef τ sig) = V (main_arg2 : DevRef τ sig) := by
  after_results_simp
set_option maxRecDepth 16384 in
set_option maxHeartbeats 4000000 in
theorem arg3_eq (V : Valuation τ sig (Elt F)) : after ops V (main_arg3 : DevRef τ sig) = V (main_arg3 : DevRef τ sig) := by
  after_results_simp
set_option maxRecDepth 16384 in
set_option maxHeartbeats 4000000 in
theorem arg4_eq (V : Valuation τ sig (Elt F)) : after ops V (main_arg4 : DevRef τ sig) = V (main_arg4 : DevRef τ sig) := by
  after_results_simp

end Cert.ReferenceIdeal.HostRun

end
-- ==== Proof.RegionWords.lean ====
/-
  The region arithmetic on 32-bit words.

  For a row (or column) number k < 512 held as a 32-bit word, jnp's lowered floor division by 64 followed by a cap
  at 7 is the word of ⌊k / 64⌋ — the dividend is non-negative, so quotient and remainder are the natural ones, the
  signs never differ, and the cap is never reached.  And for two such bands a, b < 8 the square 8·a + b, wrapped if
  negative (it is not) and clamped into [0, 63] as a table look-up clamps its start index, is the number 8·a + b.
  Both are finite checks: 512 words for the first, 64 pairs for the second.
-/
import Idealize.ShloMosaic.PureOps

namespace Cert.RegionWords

open Idealize.ShloMosaic

/-- The sign of a word as a word: 0, 1 or −1. -/
def signWord (x : BitVec 32) : BitVec 32 := if x = 0 then 0 else if x.msb then -1 else 1

/-- jnp's lowered floor division on words: the truncated quotient, less one when the signs differ and the remainder
    is not zero. -/
def floorDivWord (x c : BitVec 32) : BitVec 32 :=
  Scalar.select
    (IntOp.andi (IntOp.cmpi .ne (signWord x) (signWord c)) (IntOp.cmpi .ne (IntOp.remsi .host x c) 0#32))
    (IntOp.subi (IntOp.divsi .host x c) 1#32) (IntOp.divsi .host x c)

/-- The band of a row or column: its floor quotient by 64, capped at 7. -/
def bandWord (x : BitVec 32) : BitVec 32 := IntOp.minsi (floorDivWord x 64#32) 7#32

/-- The band of row k < 512 is ⌊k / 64⌋. -/
theorem bandWord_ofNat : ∀ k : Fin 512, bandWord (BitVec.ofNat 32 k.val) = BitVec.ofNat 32 (k.val / 64) := by
  decide +kernel

/-- A look-up's start index: a negative square wrapped by 64. -/
def wrapWord (r : BitVec 32) : BitVec 32 := Scalar.select (IntOp.cmpi .slt r 0#32) (IntOp.addi r 64#32) r

/-- For bands a, b < 8 the wrapped square, read signed and clamped into [0, 63], is 8·a + b. -/
theorem wrapWord_square : ∀ a b : Fin 8,
    min (wrapWord (IntOp.addi (IntOp.muli (BitVec.ofNat 32 a.val) 8#32) (BitVec.ofNat 32 b.val))).toInt.toNat (64 - 1)
      = 8 * a.val + b.val := by
  decide +kernel

end Cert.RegionWords
-- ==== Proof.LibGatherRows.lean ====
/-
  A row-wise table look-up read at an index.

  `table[:, idx]` of a two-axis table `table : [N, K]` at an integer array `idx : [R, C]` lowers to a
  `stablehlo.gather` whose slices are whole columns of height `N`: offset axis 0 of the result is axis 0 of the table,
  axis 1 of the table is collapsed and is the one the start index names, and the start indices are laid out as
  `[R, C, 1]`.  Result element `(b, r, c)` is the table's entry in row `b` and in the column `idx[r, c, 0]`, that
  word read as a signed integer and clamped into `[0, K − 1]`.
-/
import Idealize.ShloMosaic.PureOps
import Idealize.ShloMosaic.Lib.ValueIdx

namespace Idealize.ShloMosaic.GatherRows

open Idealize.ShloMosaic Idealize.ShloMosaic.ValueIdx

variable {α : Type}

/-- The dimension numbers of `table[:, idx]` for a table `[N, K]`, start indices `[R, C, 1]` and a result `[N, R, C]`;
    their conditions `wf` are decided on a program's literal shapes. -/
abbrev rowDims (N K R C : Nat)
    (wf : GatherDims.WF ⟨2, ![N, K]⟩ ⟨3, ![R, C, 1]⟩ ⟨3, ![N, R, C]⟩ [0] [1] [] [1] [] 2 ![N, 1]) :
    GatherDims ⟨2, ![N, K]⟩ ⟨3, ![R, C, 1]⟩ ⟨3, ![N, R, C]⟩ where
  offsetDims := [0]
  collapsedSliceDims := [1]
  operandBatchingDims := []
  startIndicesBatchingDims := []
  startIndexMap := [1]
  indexVectorDim := 2
  sliceSizes := ![N, 1]
  wf := wf

/-- THE LOOK-UP READ AT `(b, r, c)`: row `b` of the table at the column `idx[r, c, 0]`, read signed and clamped into
    `[0, K − 1]`. -/
theorem gather_rows_apply {N K R C w : Nat} (hK : 0 < K)
    (wf : GatherDims.WF ⟨2, ![N, K]⟩ ⟨3, ![R, C, 1]⟩ ⟨3, ![N, R, C]⟩ [0] [1] [] [1] [] 2 ![N, 1])
    (x : (⟨2, ![N, K]⟩ : Shape).Idx → α) (idx : IVec ⟨3, ![R, C, 1]⟩ w) (b : Fin N) (r : Fin R) (c : Fin C) :
    Host.gather (rowDims N K R C wf) x idx (ix3 b r c)
      = x (ix2 b ⟨min (idx (ix3 r c (0 : Fin 1))).toInt.toNat (K - 1), by omega⟩) := by
  unfold Host.gather
  congr 1
  funext a
  refine Fin.ext ?_
  show (rowDims N K R C wf).start (ix3 b r c) idx a + (rowDims N K R C wf).batchCoord (ix3 b r c) a
      + (rowDims N K R C wf).offCoord (ix3 b r c) a = _
  rw [GatherDims.batchCoord_eq_zero _ _ _ List.not_mem_nil, Nat.add_zero]
  have h01 : (0 : Fin 2) ≠ 1 := Fin.ne_of_val_ne (by decide)
  match a with
  | ⟨0, _⟩ =>
    -- the row axis: no start index names it, and it is the table's one kept axis, read off the result's axis 0
    have hs : (rowDims N K R C wf).start (ix3 b r c) idx (0 : Fin 2) = 0 := by
      unfold GatherDims.start
      rw [dif_neg (fun h => h01 (List.mem_singleton.mp h))]
    have hk : (0 : Fin 2) ∈ (rowDims N K R C wf).sKept :=
      (GatherDims.mem_sKept _ _).mpr ⟨fun h => h01 (List.mem_singleton.mp h), List.not_mem_nil⟩
    show (rowDims N K R C wf).start (ix3 b r c) idx (0 : Fin 2) + (rowDims N K R C wf).offCoord (ix3 b r c) (0 : Fin 2) = _
    rw [hs, Nat.zero_add]
    unfold GatherDims.offCoord
    rw [dif_pos hk]
    rfl
  | ⟨1, _⟩ =>
    -- the column axis: collapsed, so no offset; its start is the clamped index word
    have hc : (1 : Fin 2) ∉ (rowDims N K R C wf).sKept :=
      fun h => ((GatherDims.mem_sKept _ _).mp h).1 (List.mem_singleton.mpr rfl)
    show (rowDims N K R C wf).start (ix3 b r c) idx (1 : Fin 2) + (rowDims N K R C wf).offCoord (ix3 b r c) (1 : Fin 2) = _
    rw [GatherDims.offCoord_eq_zero _ _ _ hc, Nat.add_zero]
    unfold GatherDims.start
    rw [dif_pos (show (1 : Fin 2) ∈ (rowDims N K R C wf).startIndexMap from List.mem_singleton.mpr rfl)]
    have hsi : (rowDims N K R C wf).siIdx (ix3 b r c) ⟨List.idxOf (1 : Fin 2) (rowDims N K R C wf).startIndexMap,
        List.idxOf_lt_length_iff.2 (List.mem_singleton.mpr rfl)⟩ = ix3 r c (0 : Fin 1) := by
      funext d; refine Fin.ext ?_
      match d with
      | ⟨0, _⟩ => rfl
      | ⟨1, _⟩ => rfl
      | ⟨2, _⟩ => rfl
    rw [hsi]
    rfl

end Idealize.ShloMosaic.GatherRows
-- ==== Proof.RefValue.lean ====
/-
  The reference's result is the specification.

  Read at a pixel, the reference's integer arithmetic gives each row and column its band ⌊k / 64⌋ (the floor division
  and the cap, on words: RegionWords), the pixel (h, w) the square 8 · ⌊h / 64⌋ + ⌊w / 64⌋, and each table look-up —
  whose start index is read signed and clamped into the table's 64 columns — that very column.  The float operations
  are pointwise, so the result at (b, c, h, w) is ((polarity[b, n] · W[c, n] + bias[c]) · ½) · M[b, 0, h, w] at the
  pixel's square n: the specification.
-/
import proofs.«154849_j18915035972036_2_alg».proof.Proof.RefStages
import proofs.«154849_j18915035972036_2_alg».proof.Proof.Spec
import proofs.«154849_j18915035972036_2_alg».proof.Proof.RegionWords
import proofs.«154849_j18915035972036_2_alg».proof.Proof.LibGatherRows
import Idealize.ShloMosaic.Lib.Pipeline.Value
import Idealize.ShloMosaic.Lib.ValueIdx
import Idealize.ShloMosaic.Lib.IdealHost

noncomputable section

namespace Cert.ReferenceIdeal.RefValue

open Cert.ReferenceIdeal Cert.ReferenceIdeal.Stages Idealize.ShloMosaic Idealize.ShloMosaic.ValueIdx
open Idealize.ShloMosaic.GatherRows Cert.RegionWords
open Facts₀ Facts

variable [Facts]

/-- The band of row (or column) k is the word of ⌊k / 64⌋: the vector operations read at k are the word operations. -/
theorem band_apply (k : Fin 512) : band (ix1 k) = BitVec.ofNat 32 (k.val / 64) := by
  show bandWord (BitVec.ofNat 32 k.val) = _
  exact bandWord_ofNat k

/-! ### The integer vector operations read at an index -/

theorem addi_apply {s : Shape} {w : Nat} (x y : IVec s w) (i : s.Idx) : addi x y i = IntOp.addi (x i) (y i) := rfl
theorem muli_apply {s : Shape} {w : Nat} (x y : IVec s w) (i : s.Idx) : muli x y i = IntOp.muli (x i) (y i) := rfl
theorem cmpi_apply {s : Shape} {w : Nat} (p : CmpIPredicate) (x y : IVec s w) (i : s.Idx) :
    cmpi p x y i = IntOp.cmpi p (x i) (y i) := rfl

/-! ### Each repetition along new or unit axes read at an index -/

section Repeat
variable {α : Type}

/-- A per-row vector as a column: [512] → [512, 1]. -/
theorem col_apply (x : S512.Idx → α) (h : Fin 512) :
    broadcastInDim S512x1 ![0] bcast_S512_S512x1_0 x (ix2 h (0 : Fin 1)) = x (ix1 h) :=
  broadcastInDim_apply _ _ x _ _ (by intro a; match a with | ⟨0, _⟩ => rfl)

/-- A per-column vector as a row: [512] → [1, 512]. -/
theorem row_apply (x : S512.Idx → α) (w : Fin 512) :
    broadcastInDim S1x512 ![1] bcast_S512_S1x512_1 x (ix2 (0 : Fin 1) w) = x (ix1 w) :=
  broadcastInDim_apply _ _ x _ _ (by intro a; match a with | ⟨0, _⟩ => rfl)

/-- A column repeated along the columns: [512, 1] → [512, 512]. -/
theorem colRep_apply (x : S512x1.Idx → α) (h w : Fin 512) :
    broadcastInDim S512x512 ![0, 1] bcast_S512x1_S512x512_0_1 x (ix2 h w) = x (ix2 h (0 : Fin 1)) :=
  broadcastInDim_apply _ _ x _ _ (by intro a; match a with | ⟨0, _⟩ => rfl | ⟨1, _⟩ => rfl)

/-- A row repeated along the rows: [1, 512] → [512, 512]. -/
theorem rowRep_apply (x : S1x512.Idx → α) (h w : Fin 512) :
    broadcastInDim S512x512 ![0, 1] bcast_S1x512_S512x512_0_1 x (ix2 h w) = x (ix2 (0 : Fin 1) w) :=
  broadcastInDim_apply _ _ x _ _ (by intro a; match a with | ⟨0, _⟩ => rfl | ⟨1, _⟩ => rfl)

/-- The image-sized index array with a trailing unit axis: [512, 512] → [512, 512, 1]. -/
theorem unitLast_apply (x : S512x512.Idx → α) (h w : Fin 512) :
    broadcastInDim S512x512x1 ![0, 1] bcast_S512x512_S512x512x1_0_1 x (ix3 h w (0 : Fin 1)) = x (ix2 h w) :=
  broadcastInDim_apply _ _ x _ _ (by intro a; match a with | ⟨0, _⟩ => rfl | ⟨1, _⟩ => rfl)

/-- A unit channel axis inserted: [16, 512, 512] → [16, 1, 512, 512]. -/
theorem unitChan_apply (x : S16x512x512.Idx → α) (b : Fin 16) (h w : Fin 512) :
    broadcastInDim S16x1x512x512 ![0, 2, 3] bcast_S16x512x512_S16x1x512x512_0_2_3 x (ix4 b (0 : Fin 1) h w) = x (ix3 b h w) :=
  broadcastInDim_apply _ _ x _ _ (by intro a; match a with | ⟨0, _⟩ => rfl | ⟨1, _⟩ => rfl | ⟨2, _⟩ => rfl)

/-- Repeated over the three channels: [16, 1, 512, 512] → [16, 3, 512, 512]. -/
theorem chanRep_apply (x : S16x1x512x512.Idx → α) (b : Fin 16) (c : Fin 3) (h w : Fin 512) :
    broadcastInDim S16x3x512x512 ![0, 1, 2, 3] bcast_S16x1x512x512_S16x3x512x512_0_1_2_3 x (ix4 b c h w) = x (ix4 b (0 : Fin 1) h w) :=
  broadcastInDim_apply _ _ x _ _ (by intro a; match a with | ⟨0, _⟩ => rfl | ⟨1, _⟩ => rfl | ⟨2, _⟩ => rfl | ⟨3, _⟩ => rfl)

/-- A unit batch axis inserted: [3, 512, 512] → [1, 3, 512, 512]. -/
theorem unitBatch_apply (x : S3x512x512.Idx → α) (c : Fin 3) (h w : Fin 512) :
    broadcastInDim S1x3x512x512 ![1, 2, 3] bcast_S3x512x512_S1x3x512x512_1_2_3 x (ix4 (0 : Fin 1) c h w) = x (ix3 c h w) :=
  broadcastInDim_apply _ _ x _ _ (by intro a; match a with | ⟨0, _⟩ => rfl | ⟨1, _⟩ => rfl | ⟨2, _⟩ => rfl)

/-- Repeated over the sixteen batch rows: [1, 3, 512, 512] → [16, 3, 512, 512]. -/
theorem batchRep_apply (x : S1x3x512x512.Idx → α) (b : Fin 16) (c : Fin 3) (h w : Fin 512) :
    broadcastInDim S16x3x512x512 ![0, 1, 2, 3] bcast_S1x3x512x512_S16x3x512x512_0_1_2_3 x (ix4 b c h w) = x (ix4 (0 : Fin 1) c h w) :=
  broadcastInDim_apply _ _ x _ _ (by intro a; match a with | ⟨0, _⟩ => rfl | ⟨1, _⟩ => rfl | ⟨2, _⟩ => rfl | ⟨3, _⟩ => rfl)

/-- The bias, one value per channel, repeated over batch rows and pixels: [3] → [3, 1, 1] → [1, 3, 1, 1] → [16, 3, 512, 512]. -/
theorem biasRep_apply (x : S3.Idx → α) (b : Fin 16) (c : Fin 3) (h w : Fin 512) :
    broadcastInDim S16x3x512x512 ![0, 1, 2, 3] bcast_S1x3x1x1_S16x3x512x512_0_1_2_3
      (broadcastInDim S1x3x1x1 ![1, 2, 3] bcast_S3x1x1_S1x3x1x1_1_2_3 (broadcastInDim S3x1x1 ![0] bcast_S3_S3x1x1_0 x)) (ix4 b c h w)
      = x (ix1 c) := by
  rw [broadcastInDim_apply _ bcast_S1x3x1x1_S16x3x512x512_0_1_2_3 _ (ix4 b c h w) (ix4 (0 : Fin 1) c (0 : Fin 1) (0 : Fin 1)) (by
    intro a; match a with | ⟨0, _⟩ => rfl | ⟨1, _⟩ => rfl | ⟨2, _⟩ => rfl | ⟨3, _⟩ => rfl)]
  rw [broadcastInDim_apply _ bcast_S3x1x1_S1x3x1x1_1_2_3 _ (ix4 (0 : Fin 1) c (0 : Fin 1) (0 : Fin 1)) (ix3 c (0 : Fin 1) (0 : Fin 1)) (by
    intro a; match a with | ⟨0, _⟩ => rfl | ⟨1, _⟩ => rfl | ⟨2, _⟩ => rfl)]
  exact broadcastInDim_apply _ bcast_S3_S3x1x1_0 x (ix3 c (0 : Fin 1) (0 : Fin 1)) (ix1 c) (by
    intro a; match a with | ⟨0, _⟩ => rfl)

end Repeat

/-- The square of pixel (h, w), on words: 8 · (the row's band) + (the column's band). -/
theorem squareOf_apply (h w : Fin 512) :
    squareOf (ix2 h w) = IntOp.addi (IntOp.muli (BitVec.ofNat 32 (h.val / 64)) 8#32) (BitVec.ofNat 32 (w.val / 64)) := by
  unfold squareOf
  rw [addi_apply, colRep_apply, rowRep_apply, row_apply, muli_apply, col_apply, band_apply, band_apply,
    broadcastInDim_scalar_apply]
  rfl

/-- A look-up's start index at pixel (h, w): the pixel's square, wrapped if negative. -/
theorem lookupAt_apply (h w : Fin 512) : lookupAt (ix3 h w (0 : Fin 1)) = wrapWord (squareOf (ix2 h w)) := by
  unfold lookupAt
  rw [unitLast_apply, select_apply, cmpi_apply, addi_apply, broadcastInDim_scalar_apply, broadcastInDim_scalar_apply]
  rfl

/-- The column a look-up reads at pixel (h, w) — the start index read signed and clamped into the table's 64 columns —
    is the pixel's square. -/
theorem start_eq (h w : Fin 512) :
    min (lookupAt (ix3 h w (0 : Fin 1))).toInt.toNat (64 - 1) = 8 * (h.val / 64) + w.val / 64 := by
  rw [lookupAt_apply, squareOf_apply]
  exact wrapWord_square ⟨h.val / 64, by have := h.isLt; omega⟩ ⟨w.val / 64, by have := w.isLt; omega⟩

/-- A 16-row table looked up at the pixels' squares. -/
theorem lookup16 {α : Type} (x : S16x64.Idx → α) (b : Fin 16) (h w : Fin 512) :
    Host.gather gather_S16x64_S512x512x1_S16x512x512_0_1_n_n_1_2_161 x lookupAt (ix3 b h w) = x (ix2 b (Cert.Spec.square h w)) := by
  have e : gather_S16x64_S512x512x1_S16x512x512_0_1_n_n_1_2_161
      = rowDims 16 64 512 512 gather_S16x64_S512x512x1_S16x512x512_0_1_n_n_1_2_161_wf := rfl
  rw [e, gather_rows_apply (by decide)]
  exact congrArg (fun n => x (ix2 b n)) (Fin.ext (start_eq h w))

/-- A 3-row table looked up at the pixels' squares. -/
theorem lookup3 {α : Type} (x : S3x64.Idx → α) (c : Fin 3) (h w : Fin 512) :
    Host.gather gather_S3x64_S512x512x1_S3x512x512_0_1_n_n_1_2_31 x lookupAt (ix3 c h w) = x (ix2 c (Cert.Spec.square h w)) := by
  have e : gather_S3x64_S512x512x1_S3x512x512_0_1_n_n_1_2_31
      = rowDims 3 64 512 512 gather_S3x64_S512x512x1_S3x512x512_0_1_n_n_1_2_31_wf := rfl
  rw [e, gather_rows_apply (by decide)]
  exact congrArg (fun n => x (ix2 c n)) (Fin.ext (start_eq h w))

/-- THE REFERENCE'S RESULT IS THE SPECIFICATION, index by index. -/
theorem result_eq (M : FVec Ideal S16x1x512x512 .f32) (bits : IVec S16x64 32) (W : FVec Ideal S3x64 .f32) (bias : FVec Ideal S3 .f32) :
    Stages.result (F := Ideal) M bits W bias = Cert.Spec.out M bits W bias := by
  funext i
  obtain ⟨b, c, h, w, rfl⟩ : ∃ (b : Fin 16) (c : Fin 3) (h w : Fin 512), i = ix4 b c h w := ⟨i 0, i 1, i 2, i 3, eq_ix4 i⟩
  rw [Cert.Spec.out_apply]
  unfold Stages.result
  simp only [mulf_apply, addf_apply]
  rw [chanRep_apply, unitChan_apply, lookup16, batchRep_apply, unitBatch_apply, lookup3, biasRep_apply, chanRep_apply]
  unfold Stages.polarity Cert.Spec.entry
  simp only [subf_apply, mulf_apply, sitofp_apply]
  -- a scalar repeated over an array reads that scalar everywhere, and a float literal denotes its binary value
  rfl

end Cert.ReferenceIdeal.RefValue

end
-- ==== Proof.lean ====
/-
  The certificate of a mask-weighted, per-square bit pattern: the kernel against its jnp reference.

  A 512 × 512 image is cut into an 8 × 8 board of 64 × 64 squares.  Each of 16 batch rows carries 64 bits, one per
  square; a bit's polarity is 2 · bit − 1.  For batch row b, channel c and pixel (h, w) in square n both programs
  return

      ((polarity[b, n] · W[c, n] + bias[c]) · ½) · M[b, 0, h, w],

  grouped exactly so (`Spec.out`).  The reference finds n from the pixel's coordinates by integer arithmetic on 32-bit
  words (a floor division by 64, a cap, 8 · row band + column band, a wrap of negative indices) and looks polarity
  and weight up in tables of 64 columns.  The kernel is handed the 8 × 8 × 16 × 3 table of (polarity · W + bias) · ½,
  computed on the host with the flat squares recast as a board, and at each of four grid points repeats two board
  rows of it over 128 image rows and all 512 columns and multiplies by the mask.

  Since the two sides group the arithmetic the same way, no law of the extended reals is used and the precondition
  (finite inputs) is never opened: the proof is that both index the same table entry —
  ⌊(128t + r) / 64⌋ = 2t + ⌊r / 64⌋ on the kernel's side (KernelValue), the word arithmetic's value
  8 · ⌊h / 64⌋ + ⌊w / 64⌋ on the reference's (RegionWords, RefValue).

  The three frames: the two kernel programs' are the generated frame certificates; the reference has no kernel, and
  its frame is its run (RefRun) with the result dropped.  The idealization rewrote nothing, so `preserves` is `True`.
-/
import proofs.«154849_j18915035972036_2_alg».proof.Defs
import proofs.«154849_j18915035972036_2_alg».proof.Proof.Gen.Kernel
import proofs.«154849_j18915035972036_2_alg».proof.Proof.Gen.Kernel.Skeleton
import proofs.«154849_j18915035972036_2_alg».proof.Proof.Gen.Kernel.Launch
import proofs.«154849_j18915035972036_2_alg».proof.Proof.Gen.Kernel.Points
import proofs.«154849_j18915035972036_2_alg».proof.Proof.Gen.Kernel.Frame
import proofs.«154849_j18915035972036_2_alg».proof.Proof.Gen.KernelIdeal
import proofs.«154849_j18915035972036_2_alg».proof.Proof.Gen.KernelIdeal.Skeleton
import proofs.«154849_j18915035972036_2_alg».proof.Proof.Gen.KernelIdeal.Launch
import proofs.«154849_j18915035972036_2_alg».proof.Proof.Gen.KernelIdeal.Points
import proofs.«154849_j18915035972036_2_alg».proof.Proof.Gen.KernelIdeal.Frame
import proofs.«154849_j18915035972036_2_alg».proof.Proof.Gen.KernelIdeal.Value
import proofs.«154849_j18915035972036_2_alg».proof.Proof.Gen.ReferenceIdeal
import proofs.«154849_j18915035972036_2_alg».proof.Proof.Gen.Pre_finite_inputs
import proofs.«154849_j18915035972036_2_alg».proof.Proof.KernelValue
import proofs.«154849_j18915035972036_2_alg».proof.Proof.RefRun
import proofs.«154849_j18915035972036_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run terminates, and no operation writes an argument array. -/
theorem frame_reference : Cert.frame_ReferenceIdeal := fun m ρ _ =>
  (θ_run Cert.ReferenceIdeal.defs _ _).mono
    (fun _ h c => ⟨(h c Cert.ReferenceIdeal.main_arg0).trans (Cert.ReferenceIdeal.HostRun.arg0_eq _),
      (h c Cert.ReferenceIdeal.main_arg1).trans (Cert.ReferenceIdeal.HostRun.arg1_eq _),
      (h c Cert.ReferenceIdeal.main_arg2).trans (Cert.ReferenceIdeal.HostRun.arg2_eq _),
      (h c Cert.ReferenceIdeal.main_arg3).trans (Cert.ReferenceIdeal.HostRun.arg3_eq _),
      (h c Cert.ReferenceIdeal.main_arg4).trans (Cert.ReferenceIdeal.HostRun.arg4_eq _)⟩)
    (Cert.ReferenceIdeal.HostRun.run_main (F := Ideal) m ρ)

theorem preserves : Cert.preserves_Kernel_KernelIdeal := trivial

/-- From memories that agree on the arguments both programs end with the result array at the specification of those
    arguments: the kernel's blocks tile it (KernelValue), the reference's staged term is it index by index (RefValue). -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨?_,
      (h c Cert.ReferenceIdeal.main_arg0).trans (Cert.ReferenceIdeal.HostRun.arg0_eq _),
      (h c Cert.ReferenceIdeal.main_arg1).trans (Cert.ReferenceIdeal.HostRun.arg1_eq _),
      (h c Cert.ReferenceIdeal.main_arg2).trans (Cert.ReferenceIdeal.HostRun.arg2_eq _),
      (h c Cert.ReferenceIdeal.main_arg3).trans (Cert.ReferenceIdeal.HostRun.arg3_eq _),
      (h c Cert.ReferenceIdeal.main_arg4).trans (Cert.ReferenceIdeal.HostRun.arg4_eq _)⟩)
    (Cert.ReferenceIdeal.HostRun.run_main (F := Ideal) m' ρ')
  refine (h c Cert.ReferenceIdeal.main_v46).trans ?_
  rw [Cert.ReferenceIdeal.HostRun.out_eq, Cert.ReferenceIdeal.RefValue.result_eq]
  obtain ⟨-, e1, e2, e3, e4⟩ := hagree c
  show Cert.Spec.out (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
    = Cert.Spec.out (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
  rw [e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
